-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4194304 : Shape := ⟨1, ![4194304]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S4x2048x4096 .f32) (main_arg1 : FVec F S4194304 .f32) (main_arg2 : IVec S4194304 32) (main_arg3 : IVec S4194304 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  main_v8
-- ==== Kernel.lean ====
abbrev S4x2048x4096 : Shape := ⟨3, ![4, 2048, 4096]⟩
abbrev S4194304 : Shape := ⟨1, ![4194304]⟩
abbrev S_ : Shape := ⟨0, ![]⟩
abbrev S4096x4096 : Shape := ⟨2, ![4096, 4096]⟩
abbrev S4194304x1 : Shape := ⟨2, ![4194304, 1]⟩
abbrev S4194304x2 : Shape := ⟨2, ![4194304, 2]⟩
abbrev S8192x4096 : Shape := ⟨2, ![8192, 4096]⟩
abbrev S1024x1024 : Shape := ⟨2, ![1024, 1024]⟩

abbrev nBuf : Space → Nat
  | .hbm => 30
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4194304, .f32⟩
  | .hbm, ⟨2, _⟩ => ⟨S4194304, .i32⟩
  | .hbm, ⟨3, _⟩ => ⟨S4194304, .i32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S_, .i32⟩
  | .hbm, ⟨10, _⟩ => ⟨S4194304, .i32⟩
  | .hbm, ⟨11, _⟩ => ⟨S4194304, .i32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x1, .i32⟩
  | .hbm, ⟨22, _⟩ => ⟨S4194304x2, .i32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S8192x4096, .f32⟩
  | .hbm, ⟨27, _⟩ => ⟨S8192x4096, .bf16⟩
  | .hbm, ⟨28, _⟩ => ⟨S8192x4096, .f32⟩
  | .hbm, ⟨29, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S4096x4096 : S_.BroadcastsInDim S4096x4096 (![] : Fin 0 → Fin S4096x4096.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  scatter_S4096x4096_S4194304x2_S4194304_n_01_01_1_wf : ScatterDims.WF S4096x4096 S4194304x2 S4194304 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S4096x4096_S4194304x2_S4194304_n_01_01_1 : ScatterDims S4096x4096 S4194304x2 S4194304 where
  updateWindowDims := []
  insertedWindowDims := [0, 1]
  scatterDimsToOperandDims := [0, 1]
  indexVectorDim := 1
  wf := scatter_S4096x4096_S4194304x2_S4194304_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v18) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4194304 : Shape := ⟨1, ![4194304]⟩
abbrev S_ : Shape := ⟨0, ![]⟩
abbrev S4096x4096 : Shape := ⟨2, ![4096, 4096]⟩
abbrev S4194304x1 : Shape := ⟨2, ![4194304, 1]⟩
abbrev S4194304x2 : Shape := ⟨2, ![4194304, 2]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4194304, .f32⟩
  | .hbm, ⟨2, _⟩ => ⟨S4194304, .i32⟩
  | .hbm, ⟨3, _⟩ => ⟨S4194304, .i32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S_, .i32⟩
  | .hbm, ⟨10, _⟩ => ⟨S4194304, .i32⟩
  | .hbm, ⟨11, _⟩ => ⟨S4194304, .i32⟩
  | .hbm, ⟨12, _⟩ => ⟨S4194304, .i32⟩
  | .hbm, ⟨13, _⟩ => ⟨S_, .i32⟩
  | .hbm, ⟨14, _⟩ => ⟨S4194304, .i32⟩
  | .hbm, ⟨15, _⟩ => ⟨S4194304, .i1⟩
  | .hbm, ⟨16, _⟩ => ⟨S_, .i32⟩
  | .hbm, ⟨17, _⟩ => ⟨S4194304, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x1, .i32⟩
  | .hbm, ⟨22, _⟩ => ⟨S4194304x2, .i32⟩
  | .hbm, ⟨23, _⟩ => ⟨S4096x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  scatter_S4096x4096_S4194304x2_S4194304_n_01_01_1_wf : ScatterDims.WF S4096x4096 S4194304x2 S4194304 [] [0, 1] [0, 1] 1
  dot_S4x2048x4096_S4096x4096_S4x2048x4096_2_1_01_0_n_n_wf : DotDims.WF S4x2048x4096 S4096x4096 S4x2048x4096 [2] [1] [0, 1] [0] [] []

variable [Facts₀]

def scatter_S4096x4096_S4194304x2_S4194304_n_01_01_1 : ScatterDims S4096x4096 S4194304x2 S4194304 where
  updateWindowDims := []
  insertedWindowDims := [0, 1]
  scatterDimsToOperandDims := [0, 1]
  indexVectorDim := 1
  wf := scatter_S4096x4096_S4194304x2_S4194304_n_01_01_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibBlockSums.lean ====
/-
  Sums cut into consecutive runs, a matrix read at natural-number coordinates, and the textbook product.

  A sum over B·n consecutive naturals is the sum, over its n runs of length B, of each run's sum: run s holds the
  naturals B·s, …, B·s + B − 1. A contraction of length K computed K-block by K-block and added up is therefore the
  whole contraction. To speak of "entry (r, k)" for naturals r and k — a block number times the block's size plus a
  place in the block — a matrix is extended by zero outside its extents; inside them it is the matrix.
-/
import Idealize.ShloMosaic.Lib.ValueIdx

noncomputable section

open scoped BigOperators

namespace Cert.BlockSums

open Idealize.ShloMosaic Idealize.ShloMosaic.ValueIdx

/-- A sum over the first B·n naturals is the sum over n consecutive runs of length B. -/
theorem sum_range_blocks {β : Type*} [AddCommMonoid β] (B : ℕ) (f : ℕ → β) :
    ∀ n : ℕ, ∑ s ∈ Finset.range n, ∑ k ∈ Finset.range B, f (B * s + k) = ∑ K ∈ Finset.range (B * n), f K
  | 0 => by simp
  | n + 1 => by
    rw [Finset.sum_range_succ, sum_range_blocks B f n, Nat.mul_succ, Finset.sum_range_add]

variable {a k b : ℕ}

/-- A matrix read at natural-number coordinates: its entry inside its extents, zero outside. -/
def at2 (X : (⟨2, ![a, b]⟩ : Shape).Idx → EReal) (r c : ℕ) : EReal :=
  if h : r < a ∧ c < b then X (ix2 ⟨r, h.1⟩ ⟨c, h.2⟩) else 0

/-- At the coordinates of an index the extended matrix is the matrix. -/
theorem at2_ix2 (X : (⟨2, ![a, b]⟩ : Shape).Idx → EReal) (p : Fin a) (q : Fin b) :
    at2 X p.val q.val = X (ix2 p q) := by
  unfold at2
  rw [dif_pos ⟨p.isLt, q.isLt⟩]

/-- The same at an index given whole: the extended matrix at the index's two coordinates is the matrix there. -/
theorem at2_val (X : (⟨2, ![a, b]⟩ : Shape).Idx → EReal) (i : (⟨2, ![a, b]⟩ : Shape).Idx) :
    at2 X (i 0).val (i 1).val = X i := by
  rw [show X i = X (ix2 (i 0) (i 1)) from congrArg X (eq_ix2 i)]
  exact at2_ix2 X (i 0) (i 1)

/-- The textbook product of an [a, k] matrix by a [k, b] matrix: entry (p, q) is ∑ over K of X (p, K) · H (K, q). -/
def mm (X : (⟨2, ![a, k]⟩ : Shape).Idx → EReal) (H : (⟨2, ![k, b]⟩ : Shape).Idx → EReal) :
    (⟨2, ![a, b]⟩ : Shape).Idx → EReal :=
  fun i => ∑ K : Fin k, X (ix2 (i 0) K) * H (ix2 K (i 1))

/-- An entry of the product as a sum over natural-number contraction coordinates. -/
theorem mm_eq_sum_range (X : (⟨2, ![a, k]⟩ : Shape).Idx → EReal) (H : (⟨2, ![k, b]⟩ : Shape).Idx → EReal)
    (i : (⟨2, ![a, b]⟩ : Shape).Idx) :
    mm X H i = ∑ K ∈ Finset.range k, at2 X (i 0).val K * at2 H K (i 1).val := by
  unfold mm
  rw [Finset.sum_range]
  refine Finset.sum_congr rfl fun K _ => ?_
  exact (congrArg₂ (· * ·) (at2_ix2 X (i 0) K) (at2_ix2 H K (i 1))).symm

end Cert.BlockSums

end
-- ==== Proof.LibPartialProducts.lean ====
/-
  Partial products: the arithmetic of a matrix product accumulated over blocks of its contraction axis.

  For a left matrix X : [a, k] and a right matrix H : [k, b] over the extended reals, the partial product up to
  n is the sum over the contraction coordinates below n of X (r, K) · H (K, o). It starts at zero, grows by one
  block's worth of terms when n advances by a block, and at n = k it is the entry (r, o) of the product X · H.
  Only the commutative-monoid structure of the extended reals is used: no term is moved across a product, so
  nothing needs to be finite.

  The result the two programs share is stated here too: for x : [m, s, k] and weights w : [n, k], entry
  (p, q, o) is the sum over K of x (p, q, K) · w (o, K).
-/
import proofs.«129635_j35682588295215_1_alg».proof.Proof.LibBlockSums

noncomputable section

open scoped BigOperators

namespace Cert.BlockedProduct

open Idealize.ShloMosaic Idealize.ShloMosaic.ValueIdx Cert.BlockSums

variable {a k b : ℕ}

/-- The product's entry at natural-number coordinates (r, o), restricted to the contraction coordinates below n. -/
def partialProd (X : (⟨2, ![a, k]⟩ : Shape).Idx → EReal) (H : (⟨2, ![k, b]⟩ : Shape).Idx → EReal)
    (n r o : ℕ) : EReal :=
  ∑ K ∈ Finset.range n, at2 X r K * at2 H K o

/-- Before any contraction coordinate the partial product is zero. -/
theorem partialProd_zero (X : (⟨2, ![a, k]⟩ : Shape).Idx → EReal) (H : (⟨2, ![k, b]⟩ : Shape).Idx → EReal)
    (r o : ℕ) : partialProd X H 0 r o = 0 := by
  unfold partialProd
  exact Finset.sum_range_zero _

/-- Advancing by one block of B contraction coordinates adds that block's B terms. -/
theorem partialProd_block (X : (⟨2, ![a, k]⟩ : Shape).Idx → EReal) (H : (⟨2, ![k, b]⟩ : Shape).Idx → EReal)
    (B s r o : ℕ) :
    partialProd X H (B * (s + 1)) r o
      = partialProd X H (B * s) r o + ∑ kk ∈ Finset.range B, at2 X r (B * s + kk) * at2 H (B * s + kk) o := by
  unfold partialProd
  rw [Nat.mul_succ, Finset.sum_range_add]

/-- Over the whole contraction axis the partial product at an index's coordinates is the product's entry. -/
theorem partialProd_full (X : (⟨2, ![a, k]⟩ : Shape).Idx → EReal) (H : (⟨2, ![k, b]⟩ : Shape).Idx → EReal)
    (i : (⟨2, ![a, b]⟩ : Shape).Idx) : partialProd X H k (i 0).val (i 1).val = mm X H i :=
  (mm_eq_sum_range X H i).symm

/-- The same at natural-number coordinates inside the extents. -/
theorem partialProd_full_at (X : (⟨2, ![a, k]⟩ : Shape).Idx → EReal) (H : (⟨2, ![k, b]⟩ : Shape).Idx → EReal)
    (r o : ℕ) (hr : r < a) (ho : o < b) : partialProd X H k r o = at2 (mm X H) r o := by
  unfold at2
  rw [dif_pos ⟨hr, ho⟩]
  exact partialProd_full X H (ix2 ⟨r, hr⟩ ⟨o, ho⟩)

/-- The shared result: a stack x : [m, s, k] of row vectors, each multiplied against the rows of the weight
    matrix w : [n, k]; entry (p, q, o) is the sum over K of x (p, q, K) · w (o, K). -/
def rowsAgainstWeights {m s n : ℕ} (x : (⟨3, ![m, s, k]⟩ : Shape).Idx → EReal)
    (w : (⟨2, ![n, k]⟩ : Shape).Idx → EReal) : (⟨3, ![m, s, n]⟩ : Shape).Idx → EReal :=
  fun i => ∑ K : Fin k, x (ix3 (i 0) (i 1) K) * w (ix2 (i 2) K)

end Cert.BlockedProduct

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.BlockStep.lean ====
/-
  One grid point's arithmetic, read at an entry.

  At every grid point the body adds, to the accumulator block it holds, the product of the point's [1024, 1024]
  block of the left operand by its [1024, 1024] block of the right operand: entry (p, q) of what it stores is
  the accumulator's entry plus the sum over kk of l (p, kk) · r (kk, q). At the first point of a contraction
  sweep the accumulator it starts from is the zero block.
-/
import proofs.«129635_j35682588295215_1_alg».proof.Proof.Gen.KernelIdeal.Skeleton
import proofs.«129635_j35682588295215_1_alg».proof.Proof.LibMatmulPlain
import Idealize.ShloMosaic.Lib.Pipeline.Value
import Idealize.ShloMosaic.Lib.ValueIdx

noncomputable section

open scoped BigOperators

namespace Cert.KernelIdeal.BlockStep

open Idealize.ShloMosaic Idealize.ShloMosaic.ValueIdx Cert.KernelIdeal Cert.KernelIdeal.Gen

/-- The block the first point of a sweep stores before accumulating is zero at every entry. -/
theorem zeroBlock_apply (y : S1024x1024.Idx) : k0_pay1 (F := Ideal) y = 0 := by
  unfold k0_pay1
  rw [shapeCast_self]
  exact Ideal.ofBits_zero_f32

/-- The stored block at (p, q): the accumulator's entry plus the two blocks' product's entry. -/
theorem accumulate_apply (acc : Vec Ideal S1024x1024 .f32) (l r : Vec Ideal S1024x1024 .bf16) (p q : Fin 1024) :
    k0_pay2 (F := Ideal) acc l r (ix2 p q) = acc (ix2 p q) + ∑ kk : Fin 1024, l (ix2 p kk) * r (ix2 kk q) := by
  unfold k0_pay2
  simp only [shapeCast_self]
  rw [addf_apply]
  exact congrArg (acc (ix2 p q) + ·)
    (Cert.MatmulPlain.matmul_plain_apply dot_S1024x1024_S1024x1024_S1024x1024_1_0_0_1_n_n rfl rfl rfl rfl rfl rfl none l r p q)

end Cert.KernelIdeal.BlockStep

end
-- ==== Proof.LibLastWholeStore.lean ====
/-
  A whole buffer read back after it was stored whole.

  When a list of stores into a buffer has, as its latest entry, a store of the buffer's whole extent, a load of
  the whole buffer reads exactly that store's block, whatever the earlier stores wrote: the latest store covers
  every index. (A scratch accumulator that is reset, added into and then copied out within one body is read
  back this way twice.) General in the shape, the element type and the values.
-/
import Idealize.ShloMosaic.Lib.Pipeline.Value

namespace Cert.LastWholeStore

open Idealize.ShloMosaic

/-- A load of a whole buffer after stores the latest of which wrote it whole reads that latest store's block. -/
theorem readCov_last_whole {Val : EltTy → Type} [∀ e, Nonempty (Val e)] {sg : RefSig} {κ : Kind} {sp : Space}
    {S : Shape} {e : EltTy} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.LastWholeStore
-- ==== Proof.Pieces.lean ====
/-
  What the body leaves behind, as values.

  The body stores the whole accumulator block and then copies it, whole, to the output block; every load reads
  a whole buffer. So after a point both the accumulator and the output block hold one and the same block: the
  stored sum of the accumulator the point started from and the product of the point's two input blocks. At the
  first point of a contraction sweep the accumulator it starts from is the zero block the body has just stored;
  at the other points it is what the point before left.
-/
import proofs.«129635_j35682588295215_1_alg».proof.Proof.Gen.KernelIdeal.Frame
import proofs.«129635_j35682588295215_1_alg».proof.Proof.LibLastWholeStore
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen Cert.LastWholeStore

variable {F : FTy → Type} [FloatOps F]

theorem hz : (![0, 0] : Fin 2 → Nat) = fun _ => 0 := funext fun a => by fin_cases a <;> rfl

/-- After a later point of a sweep the accumulator holds the block it held plus the two blocks' product. -/
theorem acc_later (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i)
    (x0 x1 : Vec F S1024x1024 .bf16) (xs : Vec F S1024x1024 .f32) :
    sout0_B_0 c i a3 h3 a4 h4 a5 h5 a6 h6 hc x0 x1 xs = k0_pay2 xs x0 x1 := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero (S := S1024x1024) hz]
  simp only [View.readAt_eq_ld, h6.read_unread, h3.read_unread, h4.read_unread, View.ld_unit_zero (S := S1024x1024) hz]

/-- After a later point of a sweep the output block holds the same. -/
theorem out_later (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i)
    (x0 x1 : Vec F S1024x1024 .bf16) (xs : Vec F S1024x1024 .f32) :
    out0_B_2 c i a3 h3 a4 h4 a5 h5 a6 h6 hc x0 x1 xs = k0_pay2 xs x0 x1 := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero (S := S1024x1024) hz, View.readCov_unit_zero (S := S1024x1024) _ hz]
  simp only [View.readAt_eq_ld, h6.read_unread, h3.read_unread, h4.read_unread, View.ld_unit_zero (S := S1024x1024) hz]

/-- After the first point of a sweep the accumulator holds the zero block plus the two blocks' product. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i)
    (x0 x1 : Vec F S1024x1024 .bf16) :
    sout0_A_0 c i a3 h3 a4 h4 a5 h5 a6 h6 hc x0 x1 = k0_pay2 (k0_pay1 (F := F)) x0 x1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- After the first point of a sweep the output block holds the same. -/
theorem out_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i)
    (x0 x1 : Vec F S1024x1024 .bf16) :
    out0_A_2 c i a3 h3 a4 h4 a5 h5 a6 h6 hc x0 x1 = k0_pay2 (k0_pay1 (F := F)) x0 x1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero (S := S1024x1024) hz, readCov_last_whole (S := S1024x1024) _ hz,
    View.readCov_unit_zero (S := S1024x1024) _ hz]
  simp only [View.readAt_eq_ld, h3.read_unread, h4.read_unread, View.ld_unit_zero (S := S1024x1024) hz]

end Cert.KernelIdeal.Pieces

end
-- ==== Proof.Blocks.lean ====
/-
  Where each grid point's blocks sit in the arrays.

  The grid is 8 × 4 × 4: point t has row-block t / 16, column-block (t / 4) % 4 and contraction-block t % 4.
  The left operand X : [8192, 4096] is cut into [1024, 1024] blocks indexed (row-block, contraction-block), the
  right operand H : [4096, 4096] into blocks indexed (contraction-block, column-block), the result into blocks
  indexed (row-block, column-block). Entry (p, kk) of the left block at t is X (1024 · (t / 16) + p,
  1024 · (t % 4) + kk); entry (kk, q) of the right block is H (1024 · (t % 4) + kk, 1024 · ((t / 4) % 4) + q).
-/
import proofs.«129635_j35682588295215_1_alg».proof.Proof.Gen.KernelIdeal.Frame
import proofs.«129635_j35682588295215_1_alg».proof.Proof.LibBlockSums
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.BlockSums

/-- The block numbers of the three windows at point t, decided over the 128 points of the grid. -/
theorem block_numbers : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- Entry (p, kk) of the block of a matrix X : [8192, 4096] that the left window reads at point t. -/
theorem lhsBlock_read (X : S8192x4096.Idx → EReal) (t : Fin cfg0.N) (p kk : Fin 1024) :
    (((cfg0.win 0).blk t).view.read (Elt Ideal) X : Vec Ideal S1024x1024 .bf16) (ix2 p kk)
      = at2 X (1024 * (t.val / 16) + p.val) (1024 * (t.val % 4) + kk.val) := by
  have hN : t.val < 128 := lt_of_lt_of_eq t.isLt (show cfg0.N = 128 from N_0)
  obtain ⟨e0, e1, -, -, -, -⟩ := block_numbers t
  unfold at2
  rw [dif_pos ⟨by omega, by omega⟩, View.read_apply]
  refine congrArg X (funext fun a => Fin.ext ?_)
  match a with
  | ⟨0, _⟩ => show win0_0.index t (0 : Fin 2) * 1024 + 1 * p.val = 1024 * (t.val / 16) + p.val; rw [e0]; omega
  | ⟨1, _⟩ => show win0_0.index t (1 : Fin 2) * 1024 + 1 * kk.val = 1024 * (t.val % 4) + kk.val; rw [e1]; omega

/-- Entry (kk, q) of the block of a matrix H : [4096, 4096] that the right window reads at point t. -/
theorem rhsBlock_read (H : S4096x4096.Idx → EReal) (t : Fin cfg0.N) (kk q : Fin 1024) :
    (((cfg0.win 1).blk t).view.read (Elt Ideal) H : Vec Ideal S1024x1024 .bf16) (ix2 kk q)
      = at2 H (1024 * (t.val % 4) + kk.val) (1024 * (t.val / 4 % 4) + q.val) := by
  have hN : t.val < 128 := lt_of_lt_of_eq t.isLt (show cfg0.N = 128 from N_0)
  obtain ⟨-, -, e0, e1, -, -⟩ := block_numbers t
  unfold at2
  rw [dif_pos ⟨by omega, by omega⟩, View.read_apply]
  refine congrArg H (funext fun a => Fin.ext ?_)
  match a with
  | ⟨0, _⟩ => show win0_1.index t (0 : Fin 2) * 1024 + 1 * kk.val = 1024 * (t.val % 4) + kk.val; rw [e0]; omega
  | ⟨1, _⟩ => show win0_1.index t (1 : Fin 2) * 1024 + 1 * q.val = 1024 * (t.val / 4 % 4) + q.val; rw [e1]; omega

variable (m : (ℓ : Loc nD τ sig) → Buf (Elt Ideal) ℓ)

/-- The left operand as the region finds it: a matrix [8192, 4096] of extended reals. -/
def lhs (c : Dev nD) : S8192x4096.Idx → EReal := V m c (Pipeline.arrRef spec0 0)
/-- The right operand as the region finds it: a matrix [4096, 4096] of extended reals. -/
def rhs (c : Dev nD) : S4096x4096.Idx → EReal := V m c (Pipeline.arrRef spec0 1)

/-- Entry (p, kk) of the left operand's block at point t. -/
theorem lhsBlock_apply (c : Dev nD) (t : Fin cfg0.N) (p kk : Fin 1024) :
    (iblk m c 0 t : Vec Ideal S1024x1024 .bf16) (ix2 p kk)
      = at2 (lhs m c) (1024 * (t.val / 16) + p.val) (1024 * (t.val % 4) + kk.val) :=
  lhsBlock_read (lhs m c) t p kk

/-- Entry (kk, q) of the right operand's block at point t. -/
theorem rhsBlock_apply (c : Dev nD) (t : Fin cfg0.N) (kk q : Fin 1024) :
    (iblk m c 1 t : Vec Ideal S1024x1024 .bf16) (ix2 kk q)
      = at2 (rhs m c) (1024 * (t.val % 4) + kk.val) (1024 * (t.val / 4 % 4) + q.val) :=
  rhsBlock_read (rhs m c) t kk q

end Cert.KernelIdeal.Blocks

end
-- ==== Proof.Accumulate.lean ====
/-
  The accumulation over the grid.

  Points are visited in order t = 0, 1, …, 127, the contraction-block t % 4 moving fastest. After point t both the
  accumulator and the output block hold the partial product of the left operand's row-block t / 16 by the right
  operand's column-block (t / 4) % 4 over the contraction coordinates below 1024 · (t % 4 + 1): at the first point
  of a sweep (t % 4 = 0) the body starts from the zero block and adds the first 1024 terms; at a later point it
  starts from what the point before left — the same row- and column-block, one contraction-block less — and adds
  the next 1024 terms. By induction on the point.
-/
import proofs.«129635_j35682588295215_1_alg».proof.Proof.Gen.KernelIdeal.Frame
import proofs.«129635_j35682588295215_1_alg».proof.Proof.LibPartialProducts
import proofs.«129635_j35682588295215_1_alg».proof.Proof.BlockStep
import proofs.«129635_j35682588295215_1_alg».proof.Proof.Pieces
import proofs.«129635_j35682588295215_1_alg».proof.Proof.Blocks

set_option maxRecDepth 16384

noncomputable section

open scoped BigOperators

namespace Cert.KernelIdeal.Accumulate

open Idealize.ShloMosaic Idealize.ShloMosaic.TcCoe Idealize.ShloMosaic.ValueIdx Idealize.SL.Sem
open Cert.KernelIdeal Cert.KernelIdeal.Gen Cert.BlockSums Cert.BlockedProduct
open Cert.KernelIdeal.Blocks Cert.KernelIdeal.BlockStep Cert.KernelIdeal.Pieces

/-- One point's step on the partial products: from the partial product below 1024 · (n % 4), adding the product
    of the blocks at contraction-block n % 4 gives the partial product below 1024 · (n % 4 + 1). -/
theorem step (X : S8192x4096.Idx → EReal) (H : S4096x4096.Idx → EReal) (n : ℕ)
    (acc : Vec Ideal S1024x1024 .f32) (l r : Vec Ideal S1024x1024 .bf16)
    (hacc : ∀ p q : Fin 1024, acc (ix2 p q)
      = partialProd X H (1024 * (n % 4)) (1024 * (n / 16) + p.val) (1024 * (n / 4 % 4) + q.val))
    (hl : ∀ p kk : Fin 1024, l (ix2 p kk) = at2 X (1024 * (n / 16) + p.val) (1024 * (n % 4) + kk.val))
    (hr : ∀ kk q : Fin 1024, r (ix2 kk q) = at2 H (1024 * (n % 4) + kk.val) (1024 * (n / 4 % 4) + q.val)) :
    k0_pay2 (F := Ideal) acc l r
      = fun y => partialProd X H (1024 * (n % 4 + 1)) (1024 * (n / 16) + (y 0).val) (1024 * (n / 4 % 4) + (y 1).val) := by
  funext y
  obtain ⟨p, q, rfl⟩ : ∃ (p q : Fin 1024), y = ix2 p q := ⟨y 0, y 1, eq_ix2 y⟩
  show k0_pay2 (F := Ideal) acc l r (ix2 p q)
    = partialProd X H (1024 * (n % 4 + 1)) (1024 * (n / 16) + p.val) (1024 * (n / 4 % 4) + q.val)
  rw [accumulate_apply, hacc, partialProd_block X H 1024 (n % 4), Finset.sum_range]
  refine congrArg (partialProd X H (1024 * (n % 4)) (1024 * (n / 16) + p.val) (1024 * (n / 4 % 4) + q.val) + ·) ?_
  exact Finset.sum_congr rfl fun kk _ => by rw [hl, hr]

variable (m : (ℓ : Loc nD τ sig) → Buf (Elt Ideal) ℓ)

/-- The block both the accumulator and the output block hold after point n. -/
def partialBlock (c : Dev nD) (n : ℕ) : Vec Ideal S1024x1024 .f32 := fun y =>
  partialProd (lhs m c) (rhs m c) (1024 * (n % 4 + 1)) (1024 * (n / 16) + (y 0).val) (1024 * (n / 4 % 4) + (y 1).val)

/-- At the first point of a sweep: the zero block plus the first block product. -/
theorem first_block (c : Dev nD) (t : Fin cfg0.N) (h0 : t.val % 4 = 0) :
    k0_pay2 (F := Ideal) (k0_pay1 (F := Ideal)) (iblk m c 0 t) (iblk m c 1 t) = partialBlock m c t.val :=
  step (lhs m c) (rhs m c) t.val (k0_pay1 (F := Ideal)) (iblk m c 0 t) (iblk m c 1 t)
    (fun p q => by rw [zeroBlock_apply, h0, Nat.mul_zero, partialProd_zero])
    (lhsBlock_apply m c t) (rhsBlock_apply m c t)

/-- At a later point of a sweep: what the point before left plus the next block product. -/
theorem later_block (c : Dev nD) (t : Fin cfg0.N) (h0 : ¬t.val % 4 = 0) :
    k0_pay2 (F := Ideal) (partialBlock m c (t.val - 1)) (iblk m c 0 t) (iblk m c 1 t) = partialBlock m c t.val :=
  step (lhs m c) (rhs m c) t.val (partialBlock m c (t.val - 1)) (iblk m c 0 t) (iblk m c 1 t)
    (fun p q => by
      show partialProd (lhs m c) (rhs m c) (1024 * ((t.val - 1) % 4 + 1)) (1024 * ((t.val - 1) / 16) + p.val)
        (1024 * ((t.val - 1) / 4 % 4) + q.val) = _
      rw [show (t.val - 1) % 4 + 1 = t.val % 4 by omega, show (t.val - 1) / 16 = t.val / 16 by omega,
        show (t.val - 1) / 4 % 4 = t.val / 4 % 4 by omega])
    (lhsBlock_apply m c t) (rhsBlock_apply m c t)

/-- The output block and the accumulator after the first point of a sweep. -/
theorem at_first (c : Dev nD) (t : Fin cfg0.N) (h0 : t.val % 4 = 0) :
    outsAt0 m c t.val t.isLt = (partialBlock m c t.val, partialBlock m c t.val) := by
  rw [outsAt0_A m c t h0,
    out_first (F := Ideal) c (grid0.coords t) (ms0_0 t) (hs0_0 t) (ms0_1 t) (hs0_1 t) (ms0_2 t) (hs0_2 t) scM0_0
      (Memref.isWhole_whole cc0_scratch0) ((hcond0_0 t).mpr h0) (iblk m c 0 t) (iblk m c 1 t),
    acc_first (F := Ideal) c (grid0.coords t) (ms0_0 t) (hs0_0 t) (ms0_1 t) (hs0_1 t) (ms0_2 t) (hs0_2 t) scM0_0
      (Memref.isWhole_whole cc0_scratch0) ((hcond0_0 t).mpr h0) (iblk m c 0 t) (iblk m c 1 t),
    first_block m c t h0]

/-- The output block and the accumulator after a later point of a sweep, from what the point before left. -/
theorem at_later (c : Dev nD) (t : Fin cfg0.N) (h0 : ¬t.val % 4 = 0)
    (ih : ∀ hp, (outsAt0 m c (t.val - 1) hp).2 = partialBlock m c (t.val - 1)) :
    outsAt0 m c t.val t.isLt = (partialBlock m c t.val, partialBlock m c t.val) := by
  rw [outsAt0_B m c t h0, ih,
    out_later (F := Ideal) c (grid0.coords t) (ms0_0 t) (hs0_0 t) (ms0_1 t) (hs0_1 t) (ms0_2 t) (hs0_2 t) scM0_0
      (Memref.isWhole_whole cc0_scratch0) (fun h => h0 ((hcond0_0 t).mp h)) (iblk m c 0 t) (iblk m c 1 t)
      (partialBlock m c (t.val - 1)),
    acc_later (F := Ideal) c (grid0.coords t) (ms0_0 t) (hs0_0 t) (ms0_1 t) (hs0_1 t) (ms0_2 t) (hs0_2 t) scM0_0
      (Memref.isWhole_whole cc0_scratch0) (fun h => h0 ((hcond0_0 t).mp h)) (iblk m c 0 t) (iblk m c 1 t)
      (partialBlock m c (t.val - 1)),
    later_block m c t h0]

/-- After every point the output block and the accumulator hold that point's partial product. -/
theorem outsAt_eq (c : Dev nD) : ∀ (n : ℕ) (h : n < cfg0.N),
    outsAt0 m c n h = (partialBlock m c n, partialBlock m c n)
  | 0, h => at_first m c ⟨0, h⟩ rfl
  | n + 1, h => by
    by_cases h0 : (n + 1) % 4 = 0
    · exact at_first m c ⟨n + 1, h⟩ h0
    · exact at_later m c ⟨n + 1, h⟩ h0 (fun hp => congrArg Prod.snd (outsAt_eq c n hp))

end Cert.KernelIdeal.Accumulate

end
-- ==== Proof.Result.lean ====
/-
  The result matrix after the run.

  The result window writes its block back after the last point of each contraction sweep (t % 4 = 3), when the
  block holds the partial product over all 4096 contraction coordinates: entry (p, q) of the block of point t is
  entry (1024 · (t / 16) + p, 1024 · ((t / 4) % 4) + q) of the product X · H. Every entry (r, o) of the result
  matrix [8192, 4096] lies in the block written back at the point with row-block r / 1024, column-block o / 1024
  and contraction-block 3, so the matrix ends as the product. The host then recasts it to [4, 2048, 4096].
-/
import proofs.«129635_j35682588295215_1_alg».proof.Proof.Gen.KernelIdeal.Frame
import proofs.«129635_j35682588295215_1_alg».proof.Proof.Accumulate
import Idealize.ShloMosaic.Lib.Pipeline.Value
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.BlockSums Cert.BlockedProduct
open Cert.KernelIdeal.Blocks Cert.KernelIdeal.Accumulate

/-- Entry y of the block of a matrix G : [8192, 4096] that the result window covers at point t. -/
theorem outBlock_read (G : S8192x4096.Idx → EReal) (t : Fin cfg0.N) (y : S1024x1024.Idx) :
    (((cfg0.win 2).blk t).view.read (Elt Ideal) G : Vec Ideal S1024x1024 .f32) y
      = at2 G (1024 * (t.val / 16) + (y 0).val) (1024 * (t.val / 4 % 4) + (y 1).val) := by
  have hN : t.val < 128 := lt_of_lt_of_eq t.isLt (show cfg0.N = 128 from N_0)
  have h0 : (y 0).val < 1024 := idx2_lt0 y
  have h1 : (y 1).val < 1024 := idx2_lt1 y
  obtain ⟨-, -, -, -, e0, e1⟩ := block_numbers t
  unfold at2
  rw [dif_pos ⟨by omega, by omega⟩, View.read_apply]
  refine congrArg G (funext fun a => Fin.ext ?_)
  match a with
  | ⟨0, _⟩ => show win0_2.index t (0 : Fin 2) * 1024 + 1 * (y 0).val = 1024 * (t.val / 16) + (y 0).val; rw [e0]; omega
  | ⟨1, _⟩ => show win0_2.index t (1 : Fin 2) * 1024 + 1 * (y 1).val = 1024 * (t.val / 4 % 4) + (y 1).val; rw [e1]; omega

/-- An entry of the result matrix is in point t's block iff each coordinate is in the block's range. -/
theorem mem_block (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v19).slice (win0_2.rect t)).set ↔ _
  rw [View.set_slice_whole, Rect.mem_set_unit]
  exact Iff.rfl

/-- Every entry of the result matrix lies in the block written back after some sweep's last point. -/
theorem covered (i : S8192x4096.Idx) :
    ∃ t : Fin cfg0.N, (cfg0.win 2).flush t = true ∧ i ∈ ((cfg0.win 2).blk t).view.set := by
  have hN : cfg0.N = 128 := N_0
  have hi0 : (i 0).val < 8192 := idx2_lt0 i
  have hi1 : (i 1).val < 4096 := idx2_lt1 i
  obtain ⟨t, ht⟩ : ∃ t : Fin cfg0.N, t.val = (i 0).val / 1024 * 16 + (i 1).val / 1024 * 4 + 3 :=
    ⟨⟨(i 0).val / 1024 * 16 + (i 1).val / 1024 * 4 + 3, by rw [hN]; omega⟩, rfl⟩
  obtain ⟨-, -, -, -, e0, e1⟩ := block_numbers t
  refine ⟨t, (flush0_2 t).mpr (by rw [ht]; omega), ?_⟩
  rw [mem_block]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 1024 ≤ (i 1).val ∧ (i 1).val < win0_2.index t (1 : Fin 2) * 1024 + 1024
    rw [e1, ht]; omega

variable (m : (ℓ : Loc nD τ sig) → Buf (Elt Ideal) ℓ) (ρ : Dev nD → PrngReg)

/-- The product of the two operands as the region finds them: the matrix [8192, 4096] the run leaves. -/
def product (c : Dev nD) : S8192x4096.Idx → EReal := mm (a := 8192) (k := 4096) (b := 4096) (lhs m c) (rhs m c)

/-- What a sweep's last point writes back is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 128 := lt_of_lt_of_eq t.isLt (show cfg0.N = 128 from N_0)
  show (cfg0.win 2).cut (grid0.coords t) ((dats m 0 c).after 2 t) = _
  rw [after0_2, outsAt_eq]
  funext y
  show partialBlock m c t.val y
    = (((cfg0.win 2).blk t).view.read (Elt Ideal) (product m c) : Vec Ideal S1024x1024 .f32) y
  have h0 : (y 0).val < 1024 := idx2_lt0 y
  have h1 : (y 1).val < 1024 := idx2_lt1 y
  rw [outBlock_read]
  unfold partialBlock product
  show partialProd (lhs m c) (rhs m c) (1024 * (t.val % 4 + 1)) (1024 * (t.val / 16) + (y 0).val)
    (1024 * (t.val / 4 % 4) + (y 1).val) = _
  rw [h3]
  exact partialProd_full_at (lhs m c) (rhs m c) _ _ (by omega) (by omega)

/-- The result matrix ends as the product. -/
theorem final (c : Dev nD) : (dats m 0 c).arrAt 2 cfg0.N = product m c :=
  (dats m 0 c).arrAt_eq_of_cover 2 (product m c) (flushed_eq m c) covered

end Cert.KernelIdeal.Result

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.Operands.lean ====
/-
  The two operands of the product, in terms of the program's arguments.

  Before the region the host recasts x : [4, 2048, 4096] to the matrix [8192, 4096] — row p · 2048 + q of the
  matrix is row q of slab p — and narrows it to bf16, which at the exact values changes nothing; and it
  scatters the value triplets into the weight matrix w : [4096, 4096], transposes it and narrows it. So the left
  operand's entry (p · 2048 + q, K) is x (p, q, K) and the right operand's entry (K, o) is w (o, K). The weight
  matrix is the same host expression of the same three arguments in both programs.
-/
import proofs.«129635_j35682588295215_1_alg».proof.Proof.Blocks
import proofs.«129635_j35682588295215_1_alg».proof.Proof.LibAxisReads
import proofs.«129635_j35682588295215_1_alg».proof.Proof.Gen.ReferenceIdeal.Read
import Idealize.ShloMosaic.Lib.StableHlo.Run
import Idealize.ShloMosaic.Lib.Tactic

set_option maxRecDepth 16384

noncomputable section

namespace Cert.KernelIdeal.Operands

open Idealize.ShloMosaic Idealize.ShloMosaic.TcCoe Idealize.ShloMosaic.ValueIdx Idealize.SL.Sem Idealize.ShloMosaic.StableHlo
open Cert.KernelIdeal Cert.KernelIdeal.Gen Cert.KernelIdeal.Blocks

variable (m : (ℓ : Loc nD τ sig) → Buf (Elt Ideal) ℓ)

/-- The weight matrix scattered from the triplets, as the reference's own expression of the three arguments. -/
abbrev weights (c : Dev nD) : S4096x4096.Idx → EReal :=
  Cert.ReferenceIdeal.Read.val_main_v14 (F := Ideal)
    (m ((c : Thread nD τ).loc main_arg1)) (m ((c : Thread nD τ).loc main_arg2)) (m ((c : Thread nD τ).loc main_arg3))

/-- The left operand is x recast to a matrix and narrowed. -/
theorem lhs_eq (c : Dev nD) : lhs m c
    = truncf (F := Ideal) .bf16 (shapeCast S8192x4096 (m ((c : Thread nD τ).loc main_arg0)) shapeCasts_S4x2048x4096_S8192x4096)
        bitsLt_bf16_f32 := by
  unfold lhs
  show StableHlo.after hostOps0 (fun b => m (c, b)) (Proc.devRef .tc main_v18) = _
  after_results
  rfl

set_option maxHeartbeats 2000000 in
/-- The right operand is the weight matrix transposed and narrowed. -/
theorem rhs_eq (c : Dev nD) : rhs m c
    = truncf (F := Ideal) .bf16 (transpose S4096x4096 [1, 0] (weights m c) transposes_S4096x4096_S4096x4096_1_0)
        bitsLt_bf16_f32 := by
  unfold rhs
  show StableHlo.after hostOps0 (fun b => m (c, b)) (Proc.devRef .tc main_v16) = _
  after_results
  rfl

/-- Entry (r, K) of the left operand, r = p · 2048 + q, is x (p, q, K). -/
theorem lhs_apply (c : Dev nD) (r : Fin 8192) (p : Fin 4) (q : Fin 2048) (K : Fin 4096) (hr : r.val = p.val * 2048 + q.val) :
    lhs m c (ix2 r K) = m ((c : Thread nD τ).loc main_arg0) (ix3 p q K) := by
  rw [lhs_eq, truncf_apply]
  exact Cert.AxisReads.shapeCast_stack_tall_apply (m ((c : Thread nD τ).loc main_arg0)) shapeCasts_S4x2048x4096_S8192x4096 r p q K hr

/-- Entry (K, o) of the right operand is the weight matrix's entry (o, K). -/
theorem rhs_apply (c : Dev nD) (K o : Fin 4096) : rhs m c (ix2 K o) = weights m c (ix2 o K) := by
  rw [rhs_eq, truncf_apply]
  exact transpose_apply [1, 0] (weights m c) transposes_S4096x4096_S4096x4096_1_0 (ix2 K o) (ix2 o K)
    (fun b => by match b with | ⟨0, _⟩ => rfl | ⟨1, _⟩ => rfl)

end Cert.KernelIdeal.Operands

end
-- ==== Proof.KernelRun.lean ====
/-
  The kernel program's run, read.

  After the region the host recasts the result matrix [8192, 4096] — by now the product of the two operands —
  to [4, 2048, 4096]: entry (p, q, o) is the matrix's entry (p · 2048 + q, o), that is the sum over K of the left
  operand's (p · 2048 + q, K) times the right operand's (K, o), that is the sum over K of x (p, q, K) · w (o, K).
-/
import proofs.«129635_j35682588295215_1_alg».proof.Proof.Result
import proofs.«129635_j35682588295215_1_alg».proof.Proof.Operands
import proofs.«129635_j35682588295215_1_alg».proof.Proof.LibAxisReads
import Idealize.ShloMosaic.Lib.StableHlo.Run
import Idealize.ShloMosaic.Lib.Tactic

set_option maxRecDepth 16384

noncomputable section

open scoped BigOperators

namespace Cert.KernelIdeal.KernelRun

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.BlockSums Cert.BlockedProduct
open Cert.KernelIdeal.Blocks Cert.KernelIdeal.Result Cert.KernelIdeal.Operands

variable (m : (ℓ : Loc nD τ sig) → Buf (Elt Ideal) ℓ) (ρ : Dev nD → PrngReg)

/-- The program's result: the product recast to [4, 2048, 4096]. -/
def result (c : Dev nD) : S4x2048x4096.Idx → EReal :=
  shapeCast S4x2048x4096 (product m c) shapeCasts_S8192x4096_S4x2048x4096

/-- The host line after the region writes the recast of the matrix the region left. -/
theorem tail_eq (c : Dev nD) :
    Pipeline.afterTail₀ cfgs (dats m) 0 (V0 m) [hostOps1] c main_v20 = result m c := by
  unfold Pipeline.afterTail₀ result
  show StableHlo.after hostOps1 _ (Proc.devRef .tc main_v20) = _
  after_results
  rw [show Pipeline.withArrays (cfgs 0).spec c (V0 m c) (fun w => (dats m 0 c).arrAt w (cfgs 0).N)
      (Proc.tc.devRef main_v19) = product m c from
    (Pipeline.withArrays_arr spec0 launch0.win.arr_inj c _ _ 2).trans (final m c)]
  rfl

/-- Every execution of the kernel program ends with its result buffer at the recast product and its arguments
    as they were. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The result is the rows of x against the rows of the weight matrix. -/
theorem result_eq (c : Dev nD) :
    result m c = rowsAgainstWeights (m := 4) (s := 2048) (k := 4096) (n := 4096)
      (m ((c.tc : Thread nD τ).loc main_arg0)) (weights m c) := by
  obtain ⟨x, hx⟩ : ∃ x : S4x2048x4096.Idx → EReal, x = m ((c.tc : Thread nD τ).loc main_arg0) := ⟨_, rfl⟩
  rw [← hx]
  funext i
  obtain ⟨p, q, o, rfl⟩ : ∃ (p : Fin 4) (q : Fin 2048) (o : Fin 4096), i = ix3 p q o := ⟨i 0, i 1, i 2, eq_ix3 i⟩
  have hr : p.val * 2048 + q.val < 8192 := by have := p.isLt; have := q.isLt; omega
  unfold result
  rw [Cert.AxisReads.shapeCast_tall_stack_apply (product m c) shapeCasts_S8192x4096_S4x2048x4096
    ⟨p.val * 2048 + q.val, hr⟩ p q o rfl]
  show ∑ K : Fin 4096, lhs m c (ix2 ⟨p.val * 2048 + q.val, hr⟩ K) * rhs m c (ix2 K o)
    = ∑ K : Fin 4096, x (ix3 p q K) * weights m c (ix2 o K)
  exact Finset.sum_congr rfl fun K _ => by
    rw [lhs_apply m c ⟨p.val * 2048 + q.val, hr⟩ p q K rfl, rhs_apply m c K o, hx]

end Cert.KernelIdeal.KernelRun

end
-- ==== Proof.Reference.lean ====
/-
  The reference's result, read at an entry.

  The reference contracts the last axis of x : [4, 2048, 4096] against the second axis of the weight matrix
  w : [4096, 4096]: entry (p, q, o) of its result is the sum over K of x (p, q, K) · w (o, K).
-/
import proofs.«129635_j35682588295215_1_alg».proof.Proof.Gen.ReferenceIdeal.Read
import proofs.«129635_j35682588295215_1_alg».proof.Proof.LibPartialProducts

noncomputable section

open scoped BigOperators

namespace Cert.ReferenceIdeal.RefValue

open Idealize.ShloMosaic Idealize.ShloMosaic.ValueIdx Cert.ReferenceIdeal Cert.ReferenceIdeal.Read Cert.BlockedProduct

/-- The reference's result is the rows of x against the rows of the scattered weight matrix. -/
theorem result_eq (x0 : (⟨S4x2048x4096, .f32⟩ : BufTy).Contents (Elt Ideal)) (x1 : (⟨S4194304, .f32⟩ : BufTy).Contents (Elt Ideal))
    (x2 x3 : (⟨S4194304, .i32⟩ : BufTy).Contents (Elt Ideal)) :
    val_main_v15 (F := Ideal) x0 x1 x2 x3
      = rowsAgainstWeights (m := 4) (s := 2048) (k := 4096) (n := 4096) x0 (val_main_v14 (F := Ideal) x1 x2 x3) := by
  funext i
  rw [val_main_v15_apply]
  unfold rowsAgainstWeights
  refine Finset.sum_congr rfl fun K _ => ?_
  have el : lidx_main_v15 i K = ix3 (i 0) (i 1) K :=
    funext fun a => Fin.ext (by match a with | ⟨0, _⟩ => rfl | ⟨1, _⟩ => rfl | ⟨2, _⟩ => rfl)
  have er : ridx_main_v15 i K = ix2 (i 2) K :=
    funext fun a => Fin.ext (by match a with | ⟨0, _⟩ => rfl | ⟨1, _⟩ => rfl)
  rw [el, er]
  rfl

end Cert.ReferenceIdeal.RefValue

end
-- ==== Proof.lean ====
/-
  A dense layer whose weight matrix is scattered from value / column / row triplets: the kernel program against
  the reference, over the extended reals.

  Both programs first build the same weight matrix w : [4096, 4096] by one accumulating scatter of the triplets
  into zeros. The reference then contracts the last axis of x : [4, 2048, 4096] against the second axis of w:
  entry (p, q, o) is the sum over K of x (p, q, K) · w (o, K). The kernel program recasts x to a matrix
  [8192, 4096], transposes w, and multiplies the two on an 8 × 4 × 4 grid of [1024, 1024] blocks, sweeping the
  contraction axis in four blocks and accumulating: after a sweep's last point the output block holds the sum,
  in block order, of the four block products, which is the whole contraction because a sum over 4096 terms cut
  into four consecutive runs is the sum of the runs' sums — associativity of addition and nothing else, so no
  entry needs to be finite. The changes of float format are the identity at the exact values. Recast to
  [4, 2048, 4096], the kernel program's result is the reference's, entry by entry.

  The three programs' runs end with their arguments unchanged; the idealized kernel program is the kernel
  program's own text read at the exact values (no rewrite was applied), so that conjunct is trivial.
-/
import proofs.«129635_j35682588295215_1_alg».proof.Defs
import proofs.«129635_j35682588295215_1_alg».proof.Proof.Gen.Kernel
import proofs.«129635_j35682588295215_1_alg».proof.Proof.Gen.Kernel.Skeleton
import proofs.«129635_j35682588295215_1_alg».proof.Proof.Gen.Kernel.Launch
import proofs.«129635_j35682588295215_1_alg».proof.Proof.Gen.Kernel.Points
import proofs.«129635_j35682588295215_1_alg».proof.Proof.Gen.Kernel.Frame
import proofs.«129635_j35682588295215_1_alg».proof.Proof.Gen.KernelIdeal
import proofs.«129635_j35682588295215_1_alg».proof.Proof.Gen.KernelIdeal.Skeleton
import proofs.«129635_j35682588295215_1_alg».proof.Proof.Gen.KernelIdeal.Launch
import proofs.«129635_j35682588295215_1_alg».proof.Proof.Gen.KernelIdeal.Points
import proofs.«129635_j35682588295215_1_alg».proof.Proof.Gen.KernelIdeal.Frame
import proofs.«129635_j35682588295215_1_alg».proof.Proof.Gen.ReferenceIdeal
import proofs.«129635_j35682588295215_1_alg».proof.Proof.Gen.ReferenceIdeal.Run
import proofs.«129635_j35682588295215_1_alg».proof.Proof.Gen.ReferenceIdeal.Read
import proofs.«129635_j35682588295215_1_alg».proof.Proof.Gen.Pre_finite_inputs
import proofs.«129635_j35682588295215_1_alg».proof.Proof.KernelRun
import proofs.«129635_j35682588295215_1_alg».proof.Proof.Reference
import Idealize.ShloMosaic.Adequacy
import Idealize.ShloMosaic.Init

noncomputable section

namespace Cert.Proof

open Idealize.ShloMosaic Idealize.SL.Sem

/-- The kernel program runs and leaves its arguments unchanged. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- From memories agreeing on the arguments both programs end with the rows of x against the rows of the
    scattered weight matrix. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2]
  exact (Cert.KernelIdeal.KernelRun.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
